-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x16384 : Shape := ⟨2, ![16384, 16384]⟩
abbrev S16384 : Shape := ⟨1, ![16384]⟩
abbrev S128x128 : Shape := ⟨2, ![128, 128]⟩
abbrev S64x128 : Shape := ⟨2, ![64, 128]⟩
abbrev S128 : Shape := ⟨1, ![128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S64x128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S16384x128 .f32) (main_arg1 : FVec F S16384x16384 .f32) (main_arg2 : IVec S16384 32) (main_arg3 : FVec F S128x128 .f32) (main_arg4 : FVec F S128x128 .f32) (main_arg5 : FVec F S64x128 .f32) (main_arg6 : FVec F S128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_v13 main_v16
-- ==== Kernel.lean ====
abbrev S16384x128 : Shape := ⟨2, ![16384, 128]⟩
abbrev S16384x16384 : Shape := ⟨2, ![16384, 16384]⟩
abbrev S16384 : Shape := ⟨1, ![16384]⟩
abbrev S128x128 : Shape := ⟨2, ![128, 128]⟩
abbrev S64x128 : Shape := ⟨2, ![64, 128]⟩
abbrev S128 : Shape := ⟨1, ![128]⟩
abbrev S_ : Shape := ⟨0, ![]⟩
abbrev S16384x1 : Shape := ⟨2, ![16384, 1]⟩
abbrev S1x128 : Shape := ⟨2, ![1, 128]⟩
abbrev S256x16384 : Shape := ⟨2, ![256, 16384]⟩
abbrev S256x128 : Shape := ⟨2, ![256, 128]⟩
abbrev S256x1024 : Shape := ⟨2, ![256, 1024]⟩
abbrev S1024x128 : Shape := ⟨2, ![1024, 128]⟩

abbrev nBuf : Space → Nat
  | .hbm => 23
  | .vmem => 9
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S16384, .i32⟩
  | .hbm, ⟨3, _⟩ => ⟨S128x128, .f32⟩
  | .hbm, ⟨4, _⟩ => ⟨S128x128, .f32⟩
  | .hbm, ⟨5, _⟩ => ⟨S64x128, .f32⟩
  | .hbm, ⟨6, _⟩ => ⟨S128, .f32⟩
  | .hbm, ⟨7, _⟩ => ⟨S_, .i32⟩
  | .hbm, ⟨8, _⟩ => ⟨S16384, .i32⟩
  | .hbm, ⟨9, _⟩ => ⟨S16384, .i1⟩
  | .hbm, ⟨10, _⟩ => ⟨S_, .i32⟩
  | .hbm, ⟨11, _⟩ => ⟨S16384, .i32⟩
  | .hbm, ⟨12, _⟩ => ⟨S16384, .i32⟩
  | .hbm, ⟨13, _⟩ => ⟨S16384, .i32⟩
  | .hbm, ⟨14, _⟩ => ⟨S16384x1, .i32⟩
  | .hbm, ⟨15, _⟩ => ⟨S16384x128, .f32⟩
  | .hbm, ⟨16, _⟩ => ⟨S16384x128, .f32⟩
  | .hbm, ⟨17, _⟩ => ⟨S16384x128, .f32⟩
  | .hbm, ⟨18, _⟩ => ⟨S16384x128, .bf16⟩
  | .hbm, ⟨19, _⟩ => ⟨S16384x128, .bf16⟩
  | .hbm, ⟨20, _⟩ => ⟨S128x128, .bf16⟩
  | .hbm, ⟨21, _⟩ => ⟨S1x128, .f32⟩
  | .hbm, ⟨22, _⟩ => ⟨S16384x128, .f32⟩
  | .local _ .vmem, ⟨0, _⟩ => ⟨S256x16384, .f32⟩
  | .local _ .vmem, ⟨1, _⟩ => ⟨S256x16384, .f32⟩
  | .local _ .vmem, ⟨2, _⟩ => ⟨S16384x128, .bf16⟩
  | .local _ .vmem, ⟨3, _⟩ => ⟨S256x128, .bf16⟩
  | .local _ .vmem, ⟨4, _⟩ => ⟨S256x128, .bf16⟩
  | .local _ .vmem, ⟨5, _⟩ => ⟨S128x128, .bf16⟩
  | .local _ .vmem, ⟨6, _⟩ => ⟨S1x128, .f32⟩
  | .local _ .vmem, ⟨7, _⟩ => ⟨S256x128, .f32⟩
  | .local _ .vmem, ⟨8, _⟩ => ⟨S256x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c16_i32 : BitVec 32 := 16#32
  let v1 : BitVec 32 := Scalar.addi c0_i32 c16_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c1024_i32 : BitVec 32 := 1024#32
  let v14 : BitVec 32 := Scalar.muli arg7 c1024_i32
  v14
def k0_off1 (k0_t1 : Fin k0_t1_loop.trips) : Fin 2 → Nat :=
  let c0_9 : Index := 0#32
  let c0_i32 : BitVec 32 := 0#32
  let c1_i32 : BitVec 32 := 1#32
  let arg7 : BitVec 32 := Scf.iv c0_i32 c1_i32 k0_t1
  let c1024_i32 : BitVec 32 := 1024#32
  let v14 : BitVec 32 := Scalar.muli arg7 c1024_i32
  let v15 : BitVec 32 := v14
  let v16 : Index := Scalar.indexCast v15
  ![0, v16.toNat]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c1024_i32 : BitVec 32 := 1024#32
  let v14 : BitVec 32 := Scalar.muli arg7 c1024_i32
  let v15 : BitVec 32 := v14
  let v19 : Index := Scalar.indexCast v15
  let c0_10 : Index := 0#32
  ![v19.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bitsLt_bf16_f32 : FTy.bits .bf16 < FTy.bits .f32
  shapeCasts_S128_S1x128 : S128.ShapeCasts S1x128
  h_S256x1024 : 0 < S256x1024.numel
  h_S1024x128 : 0 < S1024x128.numel
  shapeCasts_S1024x128_S1024x128 : S1024x128.ShapeCasts S1024x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  gather_S64x128_S16384x1_S16384x128_1_0_n_n_0_1_1128_wf : GatherDims.WF S64x128 S16384x1 S16384x128 [1] [0] [] [0] [] 1 ![1, 128]
  dot_S16384x128_S128x128_S16384x128_1_0_0_1_n_n_wf : DotDims.WF S16384x128 S128x128 S16384x128 [1] [0] [0] [1] [] []
  dot_S256x1024_S1024x128_S256x128_1_0_0_1_n_n_wf : DotDims.WF S256x1024 S1024x128 S256x128 [1] [0] [0] [1] [] []
  dot_S256x128_S128x128_S256x128_1_0_0_1_n_n_wf : DotDims.WF S256x128 S128x128 S256x128 [1] [0] [0] [1] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S256x1024.size a ≤ S256x16384.size a
  k0_off2_inb : ∀ k0_t1 : Fin k0_t1_loop.trips, ∀ a, (k0_off2 k0_t1) a + S1024x128.size a ≤ S16384x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16384.size a ≤ S16384x16384.size a
  hwx0_0 : ∀ i : grid0.Coords, EltTy.bits .f32 = 32 ∨ (Rect.block (s := S16384x16384) S256x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S16384x128.size a
  hwx0_1 : ∀ i : grid0.Coords, EltTy.bits .bf16 = 32 ∨ (Rect.block (s := S16384x128) S16384x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S16384x128.size a
  hwx0_2 : ∀ i : grid0.Coords, EltTy.bits .bf16 = 32 ∨ (Rect.block (s := S16384x128) S256x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S16384x128.size a
  hwx0_5 : ∀ i : grid0.Coords, EltTy.bits .f32 = 32 ∨ (Rect.block (s := S16384x128) S256x128.size (cc0_transform_5 i) (hinb0_5 i)).WholeWords (EltTy.packing .f32)

variable [Facts₀]

def gather_S64x128_S16384x1_S16384x128_1_0_n_n_0_1_1128 : GatherDims S64x128 S16384x1 S16384x128 where
  offsetDims := [1]
  collapsedSliceDims := [0]
  operandBatchingDims := []
  startIndicesBatchingDims := []
  startIndexMap := [0]
  indexVectorDim := 1
  sliceSizes := ![1, 128]
  wf := gather_S64x128_S16384x1_S16384x128_1_0_n_n_0_1_1128_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win0_0 : Pipeline.Window sig grid0 :=
  Pipeline.Window.ofSpec (Memref.whole main_arg1) S256x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S16384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S256x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x128 : Shape := ⟨2, ![16384, 128]⟩
abbrev S16384x16384 : Shape := ⟨2, ![16384, 16384]⟩
abbrev S16384 : Shape := ⟨1, ![16384]⟩
abbrev S128x128 : Shape := ⟨2, ![128, 128]⟩
abbrev S64x128 : Shape := ⟨2, ![64, 128]⟩
abbrev S128 : Shape := ⟨1, ![128]⟩
abbrev S_ : Shape := ⟨0, ![]⟩
abbrev S16384x1 : Shape := ⟨2, ![16384, 1]⟩
abbrev S1x128 : Shape := ⟨2, ![1, 128]⟩

abbrev nBuf : Space → Nat
  | .hbm => 24
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S16384, .i32⟩
  | .hbm, ⟨3, _⟩ => ⟨S128x128, .f32⟩
  | .hbm, ⟨4, _⟩ => ⟨S128x128, .f32⟩
  | .hbm, ⟨5, _⟩ => ⟨S64x128, .f32⟩
  | .hbm, ⟨6, _⟩ => ⟨S128, .f32⟩
  | .hbm, ⟨7, _⟩ => ⟨S_, .i32⟩
  | .hbm, ⟨8, _⟩ => ⟨S16384, .i32⟩
  | .hbm, ⟨9, _⟩ => ⟨S16384, .i1⟩
  | .hbm, ⟨10, _⟩ => ⟨S_, .i32⟩
  | .hbm, ⟨11, _⟩ => ⟨S16384, .i32⟩
  | .hbm, ⟨12, _⟩ => ⟨S16384, .i32⟩
  | .hbm, ⟨13, _⟩ => ⟨S16384, .i32⟩
  | .hbm, ⟨14, _⟩ => ⟨S16384x1, .i32⟩
  | .hbm, ⟨15, _⟩ => ⟨S16384x128, .f32⟩
  | .hbm, ⟨16, _⟩ => ⟨S16384x128, .f32⟩
  | .hbm, ⟨17, _⟩ => ⟨S16384x128, .f32⟩
  | .hbm, ⟨18, _⟩ => ⟨S16384x128, .f32⟩
  | .hbm, ⟨19, _⟩ => ⟨S16384x128, .f32⟩
  | .hbm, ⟨20, _⟩ => ⟨S16384x128, .f32⟩
  | .hbm, ⟨21, _⟩ => ⟨S1x128, .f32⟩
  | .hbm, ⟨22, _⟩ => ⟨S16384x128, .f32⟩
  | .hbm, ⟨23, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  gather_S64x128_S16384x1_S16384x128_1_0_n_n_0_1_1128_wf : GatherDims.WF S64x128 S16384x1 S16384x128 [1] [0] [] [0] [] 1 ![1, 128]
  dot_S16384x128_S128x128_S16384x128_1_0_0_1_n_n_wf : DotDims.WF S16384x128 S128x128 S16384x128 [1] [0] [0] [1] [] []
  dot_S16384x16384_S16384x128_S16384x128_1_0_0_1_n_n_wf : DotDims.WF S16384x16384 S16384x128 S16384x128 [1] [0] [0] [1] [] []

variable [Facts₀]

def gather_S64x128_S16384x1_S16384x128_1_0_n_n_0_1_1128 : GatherDims S64x128 S16384x1 S16384x128 where
  offsetDims := [1]
  collapsedSliceDims := [0]
  operandBatchingDims := []
  startIndicesBatchingDims := []
  startIndexMap := [0]
  indexVectorDim := 1
  sliceSizes := ![1, 128]
  wf := gather_S64x128_S16384x1_S16384x128_1_0_n_n_0_1_1128_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf

class Facts : Prop extends Facts₀ where

variable [Facts]
-- ==== Proof.Piece.lean ====
/-
  What the body leaves in the output block at a grid point: its one store covers the block, and the stored value
  is the tail arithmetic (carried block + own rows through the weight + bias) of the loop's result and of the
  three blocks the body loads whole.
-/
import proofs.«162419_j38603166056521_2_alg».proof.Proof.Gen.KernelIdeal.Frame
import Idealize.ShloMosaic.Lib.Pipeline.Value

noncomputable section

namespace Cert.KernelIdeal.Piece

open Cert.KernelIdeal Cert.KernelIdeal.Gen Idealize.ShloMosaic Idealize.ShloMosaic.TcCoe Idealize.ShloMosaic.Tactic
open Idealize.SL.Sem

variable {F : FTy → Type} [FloatOps F]

/-- The zero offsets of a whole-block access. -/
theorem hz : (![0, 0] : Fin 2 → Nat) = fun _ => 0 := funext fun a => by fin_cases a <;> rfl

/-- The output block after the body: the tail arithmetic of the loop's last carried value and the loaded blocks. -/
theorem block_eq (c : Dev nD) (i : grid0.Coords) (arg1 : Memref sig .tc .vmem S256x16384 .f32) (harg1 : arg1.IsWhole) (arg2 : Memref sig .tc .vmem S16384x128 .bf16) (harg2 : arg2.IsWhole) (arg3 : Memref sig .tc .vmem S256x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S256x128 .f32) (harg6 : arg6.IsWhole)
    (x0 : Vec F S256x16384 .f32) (x1 : Vec F S16384x128 .bf16) (x2 : Vec F S256x128 .bf16) (x3 : Vec F S128x128 .bf16) (x4 : Vec F S1x128 .f32) :
    out0_A_5 c i arg1 harg1 arg2 harg2 arg3 harg3 arg4 harg4 arg5 harg5 arg6 harg6 x0 x1 x2 x3 x4
      = k0_pay3 (st_k0_t1 (F := F) Variants.none c none i arg1 harg1 arg2 harg2 arg3 harg3 arg4 harg4 arg5 harg5 arg6 harg6
          (harg1.unread x0) (harg2.unread x1) k0_pay1 k0_t1_loop.trips) x2 x3 x4 := by
  unfold out0_A_5
  rw [View.read_writes_eq_canon _ _ _ (cover0_A_5 c i arg1 harg1 arg2 harg2 arg3 harg3 arg4 harg4 arg5 harg5 arg6 harg6 x0 x1 x2 x3 x4)]
  unfold kernelRun0_A
  dsimp only
  try sl_unfold_words
  rw [View.canon_unit_zero hz]
  simp only [View.readAt_eq_ld, harg3.read_unread, harg4.read_unread, harg5.read_unread,
    View.ld_unit_zero (S := S256x128) hz, View.ld_unit_zero (S := S128x128) hz, View.ld_unit_zero (S := S1x128) hz]

end Cert.KernelIdeal.Piece

end
-- ==== Proof.LibMatOps.lean ====
/-
  A PLAIN MATRIX PRODUCT AND A COLUMN BROADCAST, READ AT AN INDEX.

  The product of an `[M, K]` by a `[K, C]` array with no batch axis, contracting the left operand's columns with the
  right operand's rows, is at `(p, q)` the sum over `k < K` of `l (p, k) · r (k, q)` — for the device's matrix unit
  accumulating into zeros and for the host's dot product alike, at the exact instance. A one-column array `[a, 1]`
  broadcast to `[a, b]` reads its row's only entry at every column.
-/
import Idealize.ShloMosaic.PureOps.Ideal.Laws
import Idealize.ShloMosaic.Lib.ValueIdx
import Idealize.ShloMosaic.Lib.Pipeline.Value

noncomputable section

open scoped BigOperators

namespace Cert.MatOps

open Idealize.ShloMosaic Idealize.ShloMosaic.ValueIdx

/-- The dimension numbers of the plain product `[M, K] × [K, C] → [M, C]`. -/
abbrev plainDot (M K C : Nat)
    (wf : DotDims.WF ⟨2, ![M, K]⟩ ⟨2, ![K, C]⟩ ⟨2, ![M, C]⟩ [1] [0] [0] [1] [] []) :
    DotDims ⟨2, ![M, K]⟩ ⟨2, ![K, C]⟩ ⟨2, ![M, C]⟩ where
  lhsContracting := [1]
  rhsContracting := [0]
  lhsNonContracting := [0]
  rhsNonContracting := [1]
  lhsBatch := []
  rhsBatch := []
  wf := wf

section
variable {M K C : Nat} (wf : DotDims.WF ⟨2, ![M, K]⟩ ⟨2, ![K, C]⟩ ⟨2, ![M, C]⟩ [1] [0] [0] [1] [] [])

/-- The contraction sum of the plain product, re-indexed by `k < K`. -/
theorem plainDot_sum (l : (⟨2, ![M, K]⟩ : Shape).Idx → EReal) (r : (⟨2, ![K, C]⟩ : Shape).Idx → EReal) (p : Fin M) (q : Fin C) :
    ∑ k : (plainDot M K C wf).contr.Idx, l ((plainDot M K C wf).lhsIdx (ix2 p q) k) * r ((plainDot M K C wf).rhsIdx (ix2 p q) k)
      = ∑ k : Fin K, l (ix2 p k) * r (ix2 k q) := by
  rw [← Equiv.sum_comp (contrEquiv1 (plainDot M K C wf) K rfl rfl).symm]
  refine Finset.sum_congr rfl fun k _ => ?_
  have hk := contrEquiv1_symm_val (plainDot M K C wf) K rfl rfl k
  have el : (plainDot M K C wf).lhsIdx (ix2 p q) ((contrEquiv1 (plainDot M K C wf) K rfl rfl).symm k) = ix2 p k :=
    funext fun a => Fin.ext (by
      match a with
      | ⟨0, _⟩ =>
        show ((plainDot M K C wf).lhsIdx (ix2 p q) _ 0).val = p.val
        unfold DotDims.lhsIdx
        rw [dif_neg (show ¬(0 : Fin 2) ∈ (plainDot M K C wf).lhsBatch from List.not_mem_nil),
          dif_pos (show (0 : Fin 2) ∈ (plainDot M K C wf).lhsNonContracting from List.mem_singleton.mpr rfl)]
        rfl
      | ⟨1, _⟩ => exact ((plainDot M K C wf).lhsIdx_val_of_single rfl _ _).trans hk)
  have er : (plainDot M K C wf).rhsIdx (ix2 p q) ((contrEquiv1 (plainDot M K C wf) K rfl rfl).symm k) = ix2 k q :=
    funext fun a => Fin.ext (by
      match a with
      | ⟨0, _⟩ => exact ((plainDot M K C wf).rhsIdx_val_of_single rfl _ _).trans hk
      | ⟨1, _⟩ =>
        show ((plainDot M K C wf).rhsIdx (ix2 p q) _ 1).val = q.val
        unfold DotDims.rhsIdx
        rw [dif_neg (show ¬(1 : Fin 2) ∈ (plainDot M K C wf).rhsBatch from List.not_mem_nil),
          dif_pos (show (1 : Fin 2) ∈ (plainDot M K C wf).rhsNonContracting from List.mem_singleton.mpr rfl)]
        rfl)
  rw [el, er]

/-- The device's matrix unit accumulating into zeros. -/
theorem matmul_plain_apply {φ₁ φ₂ : FTy} (prec : Option ContractPrecision) (l : FVec Ideal ⟨2, ![M, K]⟩ φ₁)
    (r : FVec Ideal ⟨2, ![K, C]⟩ φ₂) (p : Fin M) (q : Fin C) :
    FloatOps.matmul (plainDot M K C wf) prec l r (constant ⟨2, ![M, C]⟩ .f32 0x00000000#32) (ix2 p q)
      = ∑ k : Fin K, l (ix2 p k) * r (ix2 k q) := by
  rw [Ideal.matmul_constant_zero_apply]
  exact plainDot_sum wf l r p q

/-- The host's dot product. -/
theorem dotGeneral_plain_apply {φ₁ φ₂ : FTy} (prec : Option ContractPrecision) (sched : HostSchedule)
    (l : FVec Ideal ⟨2, ![M, K]⟩ φ₁) (r : FVec Ideal ⟨2, ![K, C]⟩ φ₂) (p : Fin M) (q : Fin C) :
    FloatOps.dotGeneral (plainDot M K C wf) prec sched l r (ix2 p q) = ∑ k : Fin K, l (ix2 p k) * r (ix2 k q) := by
  rw [Ideal.dotGeneral_apply]
  exact plainDot_sum wf l r p q

end

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.MatOps

end
-- ==== Proof.Payload.lean ====
/-
  The body's arithmetic at one entry of the output block, on the extended reals.

  One trip of the loop adds to the carried block `acc` the product of a `[256, 1024]` slab `a` of the adjacency
  rows with a `[1024, 128]` slab `t` of the projected features:
      (acc + a · t) (p, q) = acc (p, q) + ∑ j < 1024, a (p, j) · t (j, q).
  The loop starts from the zero block. After the loop the body adds the product of the block's own feature rows
  `r` (`[256, 128]`) with the weight `w` (`[128, 128]`) and the bias row `b` (`[1, 128]`):
      out (p, q) = (v (p, q) + ∑ d < 128, r (p, d) · w (d, q)) + b (0, q).
  A change of float format is the identity on extended reals, so the bf16 narrowings do not show.
-/
import proofs.«162419_j38603166056521_2_alg».proof.Proof.Gen.KernelIdeal.Skeleton
import proofs.«162419_j38603166056521_2_alg».proof.Proof.LibMatOps
import Idealize.ShloMosaic.Lib.ValueLayout
import Idealize.ShloMosaic.Lib.Pipeline.Value

noncomputable section

open scoped BigOperators

namespace Cert.KernelIdeal.Payload

open Cert.KernelIdeal Cert.KernelIdeal.Gen Idealize.ShloMosaic Idealize.ShloMosaic.ValueIdx Cert.MatOps

/-- The loop's initial block is zero everywhere. -/
theorem start_apply (p : Fin 256) (q : Fin 128) : k0_pay1 (F := Ideal) (ix2 p q) = 0 := by
  unfold k0_pay1
  exact Ideal.ofBits_zero_f32

/-- One trip: the carried entry plus the slab product's entry. -/
theorem trip_apply (acc : FVec Ideal S256x128 .f32) (a : Vec Ideal S256x1024 .f32) (t : Vec Ideal S1024x128 .bf16)
    (p : Fin 256) (q : Fin 128) :
    k0_pay2 (F := Ideal) acc a t (ix2 p q) = acc (ix2 p q) + ∑ j : Fin 1024, a (ix2 p j) * t (ix2 j q) := by
  unfold k0_pay2
  refine congrArg (acc (ix2 p q) + ·) ?_
  refine (matmul_plain_apply dot_S256x1024_S1024x128_S256x128_1_0_0_1_n_n_wf none _ _ p q).trans ?_
  refine Finset.sum_congr rfl fun j _ => ?_
  rw [shapeCast_self]
  rfl

/-- After the loop: the accumulated entry, plus the block's own rows through the weight, plus the bias. -/
theorem tail_apply (v : FVec Ideal S256x128 .f32) (r : Vec Ideal S256x128 .bf16) (w : Vec Ideal S128x128 .bf16)
    (b : Vec Ideal S1x128 .f32) (p : Fin 256) (q : Fin 128) :
    k0_pay3 (F := Ideal) v r w b (ix2 p q)
      = (v (ix2 p q) + ∑ d : Fin 128, r (ix2 p d) * w (ix2 d q)) + b (ix2 (0 : Fin 1) q) := by
  unfold k0_pay3
  show (v (ix2 p q) + _) + _ = _
  congr 1
  · refine congrArg (v (ix2 p q) + ·) ?_
    refine (matmul_plain_apply dot_S256x128_S128x128_S256x128_1_0_0_1_n_n_wf none _ _ p q).trans ?_
    simp only [shapeCast_self]
  · refine (broadcastTo_1b_ab_apply _ _ p q).trans ?_
    rw [shapeCast_self]

end Cert.KernelIdeal.Payload

end
-- ==== Proof.ChunkSum.lean ====
/-
  A sum over the first `n * c` naturals, taken `c` terms at a time: the partial sums obey the
  recursion "add the next chunk", in any commutative additive monoid (the extended reals included).
-/
import Mathlib

namespace Cert.ChunkSum

open Finset

/-- The partial sum over the first `(k + 1) * c` indices is the partial sum over the first `k * c`
    plus the `k`-th chunk of `c` consecutive terms. -/
theorem sum_range_succ_chunk {M : Type*} [AddCommMonoid M] (g : ℕ → M) (c k : ℕ) :
    ∑ j ∈ range ((k + 1) * c), g j = ∑ j ∈ range (k * c), g j + ∑ j ∈ range c, g (k * c + j) := by
  rw [Nat.succ_mul, Finset.sum_range_add]

end Cert.ChunkSum
-- ==== Proof.Trip.lean ====
/-
  The loop over the contraction axis, read as a partial sum.

  Trip `k` of the loop loads columns `1024·k … 1024·k + 1023` of the adjacency block `A` (`[256, 16384]`) and
  rows `1024·k … 1024·k + 1023` of the projected features `T` (`[16384, 128]`), and adds their product to the
  carried block. So before trip `k` the carried block holds, at `(p, q)`,
      ∑ j < 1024·k, A (p, j) · T (j, q),
  and after the sixteenth trip the whole sum over `j < 16384`: the `(p, q)` entry of `A · T`. Only that addition
  on the extended reals is commutative and associative is used (a sum may be taken a chunk at a time).
-/
import proofs.«162419_j38603166056521_2_alg».proof.Proof.Gen.KernelIdeal.Loops
import proofs.«162419_j38603166056521_2_alg».proof.Proof.Payload
import proofs.«162419_j38603166056521_2_alg».proof.Proof.ChunkSum

noncomputable section

open scoped BigOperators

namespace Cert.KernelIdeal.Trip

open Cert.KernelIdeal Cert.KernelIdeal.Gen Idealize.ShloMosaic Idealize.ShloMosaic.TcCoe Idealize.ShloMosaic.ValueIdx
open Idealize.SL.Sem

/-- The loop makes sixteen trips. -/
theorem trips_eq : k0_t1_loop.trips = 16 := by decide

section Generic
variable {F : FTy → Type} [FloatOps F]

/-- What one trip yields: the trip's arithmetic of the carried block and of the two slabs it loads. -/
theorem tripR_eq (𝒱 : Variants) (c : Dev nD) (bd : Option 𝒱.V) (i : grid0.Coords) (arg1 : Memref sig .tc .vmem S256x16384 .f32) (harg1 : arg1.IsWhole) (arg2 : Memref sig .tc .vmem S16384x128 .bf16) (harg2 : arg2.IsWhole) (arg3 : Memref sig .tc .vmem S256x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S256x128 .f32) (harg6 : arg6.IsWhole)
    (X_arg1 : BufTy.Contents (Elt F) arg1.view.ty) (X_arg2 : BufTy.Contents (Elt F) arg2.view.ty)
    (k : Fin k0_t1_loop.trips) (acc : FVec F S256x128 .f32) :
    tripR_k0_t1 (F := F) 𝒱 c bd i arg1 harg1 arg2 harg2 arg3 harg3 arg4 harg4 arg5 harg5 arg6 harg6 X_arg1 X_arg2 k acc
      = k0_pay2 acc
          (View.readAt (Elt F) arg1.view (Rect.unit (s := S256x16384) (k0_off1 k) S256x1024.size (k0_off1_inb k)).toLoadRect X_arg1)
          (View.readAt (Elt F) arg2.view (Rect.unit (s := S16384x128) (k0_off2 k) S1024x128.size (k0_off2_inb k)).toLoadRect X_arg2) := by
  unfold tripR_k0_t1 trip_k0_t1
  rfl

end Generic

/-- Trip `k`'s slab of the adjacency block: columns `1024·k + j`. -/
theorem slabA_apply (arg1 : Memref sig .tc .vmem S256x16384 .f32) (harg1 : arg1.IsWhole) (x0 : Vec Ideal S256x16384 .f32)
    (k : Fin k0_t1_loop.trips) (inb) (p : Fin 256) (j : Fin 1024) (h : k.val * 1024 + j.val < 16384) :
    View.readAt (Elt Ideal) arg1.view (Rect.unit (s := S256x16384) (k0_off1 k) S256x1024.size inb).toLoadRect (harg1.unread x0) (ix2 p j)
      = x0 (ix2 p ⟨k.val * 1024 + j.val, h⟩) := by
  rw [View.readAt_eq_ld, harg1.read_unread]
  show x0 _ = x0 _
  refine congrArg x0 (funext fun a => Fin.ext ?_)
  have e := k0_off1_eq k
  match a with
  | ⟨0, _⟩ =>
    show (k0_off1 k) 0 + 1 * p.val = p.val
    rw [e]; show 0 + 1 * p.val = p.val; omega
  | ⟨1, _⟩ =>
    show (k0_off1 k) 1 + 1 * j.val = k.val * 1024 + j.val
    rw [e]; show 1024 * k.val + 1 * j.val = k.val * 1024 + j.val; omega

/-- Trip `k`'s slab of the projected features: rows `1024·k + j`. -/
theorem slabT_apply (arg2 : Memref sig .tc .vmem S16384x128 .bf16) (harg2 : arg2.IsWhole) (x1 : Vec Ideal S16384x128 .bf16)
    (k : Fin k0_t1_loop.trips) (inb) (j : Fin 1024) (q : Fin 128) (h : k.val * 1024 + j.val < 16384) :
    View.readAt (Elt Ideal) arg2.view (Rect.unit (s := S16384x128) (k0_off2 k) S1024x128.size inb).toLoadRect (harg2.unread x1) (ix2 j q)
      = x1 (ix2 ⟨k.val * 1024 + j.val, h⟩ q) := by
  rw [View.readAt_eq_ld, harg2.read_unread]
  show x1 _ = x1 _
  refine congrArg x1 (funext fun a => Fin.ext ?_)
  have e := k0_off2_eq k
  match a with
  | ⟨0, _⟩ =>
    show (k0_off2 k) 0 + 1 * j.val = k.val * 1024 + j.val
    rw [e]; show 1024 * k.val + 1 * j.val = k.val * 1024 + j.val; omega
  | ⟨1, _⟩ =>
    show (k0_off2 k) 1 + 1 * q.val = q.val
    rw [e]; show 0 + 1 * q.val = q.val; omega

/-- The `j`-th term of the `(p, q)` entry of `A · T` (zero past the contraction's extent). -/
def term (x0 : Vec Ideal S256x16384 .f32) (x1 : Vec Ideal S16384x128 .bf16) (p : Fin 256) (q : Fin 128) (j : ℕ) : EReal :=
  if h : j < 16384 then x0 (ix2 p ⟨j, h⟩) * x1 (ix2 ⟨j, h⟩ q) else 0

/-- THE INVARIANT: before trip `k` the carried block holds the partial sums over the first `1024·k` terms. -/
theorem carried_apply (𝒱 : Variants) (c : Dev nD) (bd : Option 𝒱.V) (i : grid0.Coords) (arg1 : Memref sig .tc .vmem S256x16384 .f32) (harg1 : arg1.IsWhole) (arg2 : Memref sig .tc .vmem S16384x128 .bf16) (harg2 : arg2.IsWhole) (arg3 : Memref sig .tc .vmem S256x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S256x128 .f32) (harg6 : arg6.IsWhole)
    (x0 : Vec Ideal S256x16384 .f32) (x1 : Vec Ideal S16384x128 .bf16) (p : Fin 256) (q : Fin 128) :
    ∀ k : ℕ, k ≤ 16 →
      st_k0_t1 (F := Ideal) 𝒱 c bd i arg1 harg1 arg2 harg2 arg3 harg3 arg4 harg4 arg5 harg5 arg6 harg6
        (harg1.unread x0) (harg2.unread x1) k0_pay1 k (ix2 p q)
      = ∑ j ∈ Finset.range (k * 1024), term x0 x1 p q j
  | 0, _ => by
    rw [st_k0_t1_zero, Payload.start_apply]
    simp
  | k + 1, hk => by
    have hk' : k < k0_t1_loop.trips := by rw [trips_eq]; omega
    have ih := carried_apply 𝒱 c bd i arg1 harg1 arg2 harg2 arg3 harg3 arg4 harg4 arg5 harg5 arg6 harg6 x0 x1 p q k (by omega)
    have hs := st_k0_t1_succ (F := Ideal) 𝒱 c bd i arg1 harg1 arg2 harg2 arg3 harg3 arg4 harg4 arg5 harg5 arg6 harg6
      (harg1.unread x0) (harg2.unread x1) k0_pay1 ⟨k, hk'⟩
    rw [show (⟨k, hk'⟩ : Fin k0_t1_loop.trips).val = k from rfl] at hs
    rw [hs, tripR_eq, Payload.trip_apply, ih, ChunkSum.sum_range_succ_chunk]
    refine congrArg (_ + ·) ?_
    rw [← Fin.sum_univ_eq_sum_range (fun j => term x0 x1 p q (k * 1024 + j)) 1024]
    refine Finset.sum_congr rfl fun j _ => ?_
    have hj : k * 1024 + j.val < 16384 := by have := j.isLt; omega
    rw [slabA_apply arg1 harg1 x0 ⟨k, hk'⟩ _ p j hj, slabT_apply arg2 harg2 x1 ⟨k, hk'⟩ _ j q hj]
    unfold term
    rw [dif_pos hj]

/-- AFTER THE LOOP the carried block holds the whole product `A · T`, entry by entry. -/
theorem loop_apply (𝒱 : Variants) (c : Dev nD) (bd : Option 𝒱.V) (i : grid0.Coords) (arg1 : Memref sig .tc .vmem S256x16384 .f32) (harg1 : arg1.IsWhole) (arg2 : Memref sig .tc .vmem S16384x128 .bf16) (harg2 : arg2.IsWhole) (arg3 : Memref sig .tc .vmem S256x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S256x128 .f32) (harg6 : arg6.IsWhole)
    (x0 : Vec Ideal S256x16384 .f32) (x1 : Vec Ideal S16384x128 .bf16) (p : Fin 256) (q : Fin 128) :
    st_k0_t1 (F := Ideal) 𝒱 c bd i arg1 harg1 arg2 harg2 arg3 harg3 arg4 harg4 arg5 harg5 arg6 harg6
        (harg1.unread x0) (harg2.unread x1) k0_pay1 k0_t1_loop.trips (ix2 p q)
      = ∑ j : Fin 16384, x0 (ix2 p j) * x1 (ix2 j q) := by
  rw [trips_eq, carried_apply 𝒱 c bd i arg1 harg1 arg2 harg2 arg3 harg3 arg4 harg4 arg5 harg5 arg6 harg6 x0 x1 p q 16 le_rfl,
    ← Fin.sum_univ_eq_sum_range (fun j => term x0 x1 p q j) (16 * 1024)]
  refine Finset.sum_congr rfl fun j _ => ?_
  unfold term
  rw [dif_pos j.isLt]

end Cert.KernelIdeal.Trip

end
-- ==== Proof.Point.lean ====
/-
  The output block at a grid point, entry by entry, as a function of the five blocks the body is given:
  with `a` the adjacency rows (`[256, 16384]`), `t` the projected rows (`[16384, 128]`), `r` the block's own scaled
  rows (`[256, 128]`), `w` the weight and `b` the bias row,
      out (p, q) = (∑ j < 16384, a (p, j) · t (j, q) + ∑ d < 128, r (p, d) · w (d, q)) + b (0, q).
-/
import proofs.«162419_j38603166056521_2_alg».proof.Proof.Piece
import proofs.«162419_j38603166056521_2_alg».proof.Proof.Trip

noncomputable section

open scoped BigOperators

namespace Cert.KernelIdeal.Point

open Cert.KernelIdeal Cert.KernelIdeal.Gen Idealize.ShloMosaic Idealize.ShloMosaic.TcCoe Idealize.ShloMosaic.ValueIdx
open Idealize.SL.Sem

/-- The block the body leaves, at `(p, q)`. -/
theorem block_apply (c : Dev nD) (i : grid0.Coords) (arg1 : Memref sig .tc .vmem S256x16384 .f32) (harg1 : arg1.IsWhole) (arg2 : Memref sig .tc .vmem S16384x128 .bf16) (harg2 : arg2.IsWhole) (arg3 : Memref sig .tc .vmem S256x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S256x128 .f32) (harg6 : arg6.IsWhole)
    (a : Vec Ideal S256x16384 .f32) (t : Vec Ideal S16384x128 .bf16) (r : Vec Ideal S256x128 .bf16) (w : Vec Ideal S128x128 .bf16)
    (b : Vec Ideal S1x128 .f32) (p : Fin 256) (q : Fin 128) :
    out0_A_5 (F := Ideal) c i arg1 harg1 arg2 harg2 arg3 harg3 arg4 harg4 arg5 harg5 arg6 harg6 a t r w b (ix2 p q)
      = (∑ j : Fin 16384, a (ix2 p j) * t (ix2 j q) + ∑ d : Fin 128, r (ix2 p d) * w (ix2 d q)) + b (ix2 (0 : Fin 1) q) := by
  rw [Piece.block_eq, Payload.tail_apply, Trip.loop_apply]

end Cert.KernelIdeal.Point

end
-- ==== Proof.HostSide.lean ====
/-
  The arrays the launch finds, as functions of the arguments.

  Before the launch the host scales each vertex's feature row by its region's parameter row (a gather over the
  region table, the index first wrapped once when negative), and projects the scaled rows through the lag weight:
      R = h ∘ reg[idx],      T = R · lag.
  The launch is then given the adjacency, `T`, `R` and the weight (each through a change of float format) and the
  bias as a one-row array.
-/
import proofs.«162419_j38603166056521_2_alg».proof.Proof.Gen.KernelIdeal.Frame
import Idealize.ShloMosaic.Lib.StableHlo.Run

noncomputable section

namespace Cert.KernelIdeal.HostSide

open Cert.KernelIdeal Cert.KernelIdeal.Gen Idealize.ShloMosaic Idealize.ShloMosaic.TcCoe Idealize.ShloMosaic.StableHlo
open Idealize.SL.Sem

variable {F : FTy → Type} [FloatOps F]

/-- The feature rows, each scaled entry by entry by the parameter row of its vertex's region. -/
def scaled (h : (⟨S16384x128, .f32⟩ : BufTy).Contents (Elt F)) (idx : (⟨S16384, .i32⟩ : BufTy).Contents (Elt F))
    (reg : (⟨S64x128, .f32⟩ : BufTy).Contents (Elt F)) : (⟨S16384x128, .f32⟩ : BufTy).Contents (Elt F) :=
  mulf h (Host.gather gather_S64x128_S16384x1_S16384x128_1_0_n_n_0_1_1128 reg
    (broadcastInDim S16384x1 ![0] bcast_S16384_S16384x1_0
      (select (cmpi .slt idx (broadcastInDim S16384 ![] bcast_S_S16384 (constantI S_ 32 0#32)))
        (addi idx (broadcastInDim S16384 ![] bcast_S_S16384 (constantI S_ 32 64#32))) idx)))

/-- The scaled rows projected through the lag weight. -/
def projected (h : (⟨S16384x128, .f32⟩ : BufTy).Contents (Elt F)) (idx : (⟨S16384, .i32⟩ : BufTy).Contents (Elt F))
    (reg : (⟨S64x128, .f32⟩ : BufTy).Contents (Elt F)) (lag : (⟨S128x128, .f32⟩ : BufTy).Contents (Elt F)) :
    (⟨S16384x128, .f32⟩ : BufTy).Contents (Elt F) :=
  Host.dotGeneral dot_S16384x128_S128x128_S16384x128_1_0_0_1_n_n none (scaled h idx reg) lag

variable (m : (ℓ : Loc nD τ sig) → Buf (Elt F) ℓ)

/-- The launch's second operand: the projected rows (narrowed). -/
theorem V_projected (c : Dev nD) :
    (V m c main_v9 : S16384x128.Idx → Elt F .bf16)
      = truncf .bf16 (projected (m ((c : Thread nD τ).loc main_arg0)) (m ((c : Thread nD τ).loc main_arg2))
          (m ((c : Thread nD τ).loc main_arg5)) (m ((c : Thread nD τ).loc main_arg4))) bitsLt_bf16_f32 := by
  dsimp only [V, hostOps0]
  after_results <;> rfl

/-- The launch's third operand: the scaled rows (narrowed). -/
theorem V_scaled (c : Dev nD) :
    (V m c main_v10 : S16384x128.Idx → Elt F .bf16)
      = truncf .bf16 (scaled (m ((c : Thread nD τ).loc main_arg0)) (m ((c : Thread nD τ).loc main_arg2))
          (m ((c : Thread nD τ).loc main_arg5))) bitsLt_bf16_f32 := by
  dsimp only [V, hostOps0]
  after_results <;> rfl

/-- The launch's fourth operand: the weight (narrowed). -/
theorem V_weight (c : Dev nD) :
    (V m c main_v11 : S128x128.Idx → Elt F .bf16)
      = truncf .bf16 (m ((c : Thread nD τ).loc main_arg3) : S128x128.Idx → Elt F .f32) bitsLt_bf16_f32 := by
  dsimp only [V, hostOps0]
  after_results <;> rfl

/-- The launch's fifth operand: the bias as one row. -/
theorem V_bias (c : Dev nD) :
    (V m c main_v12 : S1x128.Idx → Elt F .f32)
      = shapeCast S1x128 (m ((c : Thread nD τ).loc main_arg6) : S128.Idx → Elt F .f32) shapeCasts_S128_S1x128 := by
  dsimp only [V, hostOps0]
  after_results <;> rfl

end Cert.KernelIdeal.HostSide

end
-- ==== Proof.Spec.lean ====
/-
  THE RESULT AS ONE FUNCTION OF FIVE ARRAYS, entry by entry, on the extended reals.

  With `A` the adjacency (`[16384, 16384]`), `T` the projected feature rows (`[16384, 128]`), `R` the scaled
  feature rows (`[16384, 128]`), `W` the weight (`[128, 128]`) and `b` the bias (`[128]`):
      out (p, q) = (∑ k < 16384, A (p, k) · T (k, q)  +  ∑ d < 128, R (p, d) · W (d, q))  +  b (q).
  The device computes the first sum sixteen chunks of 1024 terms at a time, on 64 blocks of 256 rows; the
  reference computes `(R · W + A · T) + b`. The two differ by one use of commutativity of addition, which holds
  on the extended reals with no finiteness assumption.
-/
import Idealize.ShloMosaic.PureOps.Ideal
import Idealize.ShloMosaic.Lib.ValueIdx

noncomputable section

open scoped BigOperators

namespace Cert.Spec

open Idealize.ShloMosaic Idealize.ShloMosaic.ValueIdx

/-- The aggregate: adjacency-weighted projected rows, plus the vertex's own rows through the weight, plus the bias. -/
def agg (A : (⟨2, ![16384, 16384]⟩ : Shape).Idx → EReal) (T R : (⟨2, ![16384, 128]⟩ : Shape).Idx → EReal)
    (W : (⟨2, ![128, 128]⟩ : Shape).Idx → EReal) (b : (⟨1, ![128]⟩ : Shape).Idx → EReal) :
    (⟨2, ![16384, 128]⟩ : Shape).Idx → EReal := fun i =>
  (∑ k : Fin 16384, A (ix2 (n0 := 16384) (i 0) k) * T (ix2 (n1 := 128) k (i 1))
    + ∑ d : Fin 128, R (ix2 (n0 := 16384) (i 0) d) * W (ix2 (n1 := 128) d (i 1))) + b (ix1 (n := 128) (i 1))

/-- The aggregate at `(p, q)`. -/
theorem agg_apply (A : (⟨2, ![16384, 16384]⟩ : Shape).Idx → EReal) (T R : (⟨2, ![16384, 128]⟩ : Shape).Idx → EReal)
    (W : (⟨2, ![128, 128]⟩ : Shape).Idx → EReal) (b : (⟨1, ![128]⟩ : Shape).Idx → EReal) (p : Fin 16384) (q : Fin 128) :
    agg A T R W b (ix2 p q)
      = (∑ k : Fin 16384, A (ix2 p k) * T (ix2 k q) + ∑ d : Fin 128, R (ix2 p d) * W (ix2 d q)) + b (ix1 q) := rfl

end Cert.Spec

end
-- ==== Proof.Blocks.lean ====
/-
  FROM BLOCKS TO THE ARRAY. Grid point `t` (of 64) is given rows `256·t … 256·t + 255` of the adjacency and of the
  scaled feature rows, and the projected rows, the weight and the bias whole; it writes back rows
  `256·t … 256·t + 255` of the result. What it writes is those rows of the aggregate (Spec.lean), and the 64 row
  blocks tile the result array (row `r` belongs to point `r / 256`), so after the run the array holds the aggregate.
-/
import proofs.«162419_j38603166056521_2_alg».proof.Proof.Gen.KernelIdeal.Value
import proofs.«162419_j38603166056521_2_alg».proof.Proof.Point
import proofs.«162419_j38603166056521_2_alg».proof.Proof.HostSide
import proofs.«162419_j38603166056521_2_alg».proof.Proof.Spec
import Idealize.ShloMosaic.Lib.Pipeline.Value
import Idealize.ShloMosaic.Lib.ValueLayout

noncomputable section

open scoped BigOperators

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-- The aggregate of the argument arrays on core `c`. -/
def result (c : Dev nD) : S16384x128.Idx → Elt Ideal .f32 :=
  Spec.agg (m ((c : Thread nD τ).loc main_arg1))
    (HostSide.projected (m ((c : Thread nD τ).loc main_arg0)) (m ((c : Thread nD τ).loc main_arg2)) (m ((c : Thread nD τ).loc main_arg5)) (m ((c : Thread nD τ).loc main_arg4)))
    (HostSide.scaled (m ((c : Thread nD τ).loc main_arg0)) (m ((c : Thread nD τ).loc main_arg2)) (m ((c : Thread nD τ).loc main_arg5)))
    (m ((c : Thread nD τ).loc main_arg3)) (m ((c : Thread nD τ).loc main_arg6))

/-- The block index maps, decided over the 64 points: the adjacency, the scaled rows and the result move one block of
    rows per point; the projected rows, the weight and the bias stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Point `t`'s adjacency block is rows `256·t + p` of the adjacency. -/
theorem rowsA_apply (c : Dev nD) (t : Fin cfg0.N) (p : Fin 256) (j : Fin 16384) (h : t.val * 256 + p.val < 16384) :
    (iblk m c 0 t : Vec Ideal S256x16384 .f32) (ix2 p j)
      = ((m ((c : Thread nD τ).loc main_arg1)) : S16384x16384.Idx → Elt Ideal .f32) (ix2 ⟨t.val * 256 + p.val, h⟩ j) := by
  obtain ⟨e0, e1, -⟩ := idx_facts t
  unfold iblk
  rw [View.read_apply]
  show V m c main_arg1 _ = _
  rw [V_main_arg1]
  congr 1
  funext a
  apply Fin.ext
  match a with
  | ⟨0, _⟩ => show win0_0.index t (0 : Fin 2) * 256 + 1 * p.val = t.val * 256 + p.val; rw [e0]; omega
  | ⟨1, _⟩ => show win0_0.index t (1 : Fin 2) * 16384 + 1 * j.val = j.val; rw [e1]; omega

/-- Every point is given the projected rows whole. -/
theorem wholeT_apply (c : Dev nD) (t : Fin cfg0.N) (j : Fin 16384) (q : Fin 128) :
    (iblk m c 1 t : Vec Ideal S16384x128 .bf16) (ix2 j q)
      = HostSide.projected (m ((c : Thread nD τ).loc main_arg0)) (m ((c : Thread nD τ).loc main_arg2)) (m ((c : Thread nD τ).loc main_arg5)) (m ((c : Thread nD τ).loc main_arg4)) (ix2 j q) := by
  obtain ⟨-, -, e0, e1, -⟩ := idx_facts t
  unfold iblk
  rw [View.read_apply]
  show V m c main_v9 _ = _
  rw [HostSide.V_projected]
  show HostSide.projected (F := Ideal) _ _ _ _ _ = _
  congr 1
  funext a
  apply Fin.ext
  match a with
  | ⟨0, _⟩ => show win0_1.index t (0 : Fin 2) * 16384 + 1 * j.val = j.val; rw [e0]; omega
  | ⟨1, _⟩ => show win0_1.index t (1 : Fin 2) * 128 + 1 * q.val = q.val; rw [e1]; omega

/-- Point `t`'s block of scaled rows is rows `256·t + p`. -/
theorem rowsR_apply (c : Dev nD) (t : Fin cfg0.N) (p : Fin 256) (d : Fin 128) (h : t.val * 256 + p.val < 16384) :
    (iblk m c 2 t : Vec Ideal S256x128 .bf16) (ix2 p d)
      = HostSide.scaled (m ((c : Thread nD τ).loc main_arg0)) (m ((c : Thread nD τ).loc main_arg2)) (m ((c : Thread nD τ).loc main_arg5)) (ix2 ⟨t.val * 256 + p.val, h⟩ d) := by
  obtain ⟨-, -, -, -, e0, e1, -⟩ := idx_facts t
  unfold iblk
  rw [View.read_apply]
  show V m c main_v10 _ = _
  rw [HostSide.V_scaled]
  show HostSide.scaled (F := Ideal) _ _ _ _ = _
  congr 1
  funext a
  apply Fin.ext
  match a with
  | ⟨0, _⟩ => show win0_2.index t (0 : Fin 2) * 256 + 1 * p.val = t.val * 256 + p.val; rw [e0]; omega
  | ⟨1, _⟩ => show win0_2.index t (1 : Fin 2) * 128 + 1 * d.val = d.val; rw [e1]; omega

/-- Every point is given the weight whole. -/
theorem wholeW_apply (c : Dev nD) (t : Fin cfg0.N) (d : Fin 128) (q : Fin 128) :
    (iblk m c 3 t : Vec Ideal S128x128 .bf16) (ix2 d q)
      = ((m ((c : Thread nD τ).loc main_arg3)) : S128x128.Idx → Elt Ideal .f32) (ix2 d q) := by
  obtain ⟨-, -, -, -, -, -, e0, e1, -⟩ := idx_facts t
  unfold iblk
  rw [View.read_apply]
  show V m c main_v11 _ = _
  rw [HostSide.V_weight]
  show ((m ((c : Thread nD τ).loc main_arg3)) : S128x128.Idx → Elt Ideal .f32) _ = _
  congr 1
  funext a
  apply Fin.ext
  match a with
  | ⟨0, _⟩ => show win0_3.index t (0 : Fin 2) * 128 + 1 * d.val = d.val; rw [e0]; omega
  | ⟨1, _⟩ => show win0_3.index t (1 : Fin 2) * 128 + 1 * q.val = q.val; rw [e1]; omega

/-- Every point is given the bias as its one row. -/
theorem bias_apply (c : Dev nD) (t : Fin cfg0.N) (q : Fin 128) :
    (iblk m c 4 t : Vec Ideal S1x128 .f32) (ix2 (0 : Fin 1) q)
      = ((m ((c : Thread nD τ).loc main_arg6)) : S128.Idx → Elt Ideal .f32) (ix1 q) := by
  obtain ⟨-, -, -, -, -, -, -, -, e0, e1, -⟩ := idx_facts t
  unfold iblk
  rw [View.read_apply]
  show V m c main_v12 _ = _
  rw [HostSide.V_bias]
  have e : (((cfg0.win 4).blk t).view.emb (ix2 (0 : Fin 1) q) : S1x128.Idx) = ix2 (0 : Fin 1) q := by
    funext a
    apply Fin.ext
    match a with
    | ⟨0, _⟩ => show win0_4.index t (0 : Fin 2) * 1 + 1 * 0 = 0; rw [e0]
    | ⟨1, _⟩ => show win0_4.index t (1 : Fin 2) * 128 + 1 * q.val = q.val; rw [e1]; omega
  rw [e]
  exact shapeCast_a_1a_apply _ _ (0 : Fin 1) q

/-- Entry `(p, q)` of point `t`'s result block sits at row `256·t + p` of the result array. -/
theorem emb_out (t : Fin cfg0.N) (p : Fin 256) (q : Fin 128) (h : t.val * 256 + p.val < 16384) :
    (((cfg0.win 5).blk t).view.emb (ix2 p q) : S16384x128.Idx) = ix2 ⟨t.val * 256 + p.val, h⟩ q := by
  obtain ⟨-, -, -, -, -, -, -, -, -, -, e0, e1⟩ := idx_facts t
  funext a
  apply Fin.ext
  match a with
  | ⟨0, _⟩ => show win0_5.index t (0 : Fin 2) * 256 + 1 * p.val = t.val * 256 + p.val; rw [e0]; omega
  | ⟨1, _⟩ => show win0_5.index t (1 : Fin 2) * 128 + 1 * q.val = q.val; rw [e1]; omega

/-- WHAT POINT `t` WRITES BACK is its block of rows of the aggregate. -/
theorem flushed_eq (c : Dev nD) (t : Fin cfg0.N) :
    (dats m 0 c).flushed 5 t = ((cfg0.win 5).blk t).view.read (Elt Ideal) (result m c) := by
  rw [Value.flushed5_A]
  refine funext fun (y : S256x128.Idx) => ?_
  obtain ⟨p, q, rfl⟩ : ∃ (p : Fin 256) (q : Fin 128), y = ix2 p q := ⟨y 0, y 1, eq_ix2 y⟩
  have ht : t.val < 64 := lt_of_lt_of_eq t.isLt N_0
  have hp : t.val * 256 + p.val < 16384 := by have := p.isLt; omega
  rw [View.read_apply, emb_out t p q hp]
  refine (Point.block_apply c (grid0.coords t) (ms0_0 t) (hs0_0 t) (ms0_1 t) (hs0_1 t) (ms0_2 t) (hs0_2 t) (ms0_3 t) (hs0_3 t)
    (ms0_4 t) (hs0_4 t) (ms0_5 t) (hs0_5 t) (iblk m c 0 t) (iblk m c 1 t) (iblk m c 2 t) (iblk m c 3 t) (iblk m c 4 t) p q).trans ?_
  unfold result
  rw [Spec.agg_apply]
  refine congrArg₂ (· + ·) (congrArg₂ (· + ·) (Finset.sum_congr rfl fun j _ => ?_) (Finset.sum_congr rfl fun d _ => ?_))
    (bias_apply m c t q)
  · rw [rowsA_apply m c t p j hp, wholeT_apply m c t j q]
  · rw [rowsR_apply m c t p d hp, wholeW_apply m c t d q]

/-- An index of the result array is in point `t`'s block iff each coordinate is in the block's range on its axis. -/
theorem mem_blk (t : Fin cfg0.N) (i : S16384x128.Idx) :
    i ∈ ((cfg0.win 5).blk t).view.set ↔ ∀ a : Fin 2, win0_5.index t a * S256x128.size a ≤ (i a).val
      ∧ (i a).val < win0_5.index t a * S256x128.size a + S256x128.size a := by
  show i ∈ ((View.whole main_v13).slice (win0_5.rect t)).set ↔ _
  rw [View.set_slice_whole, Rect.mem_set_unit]
  exact Iff.rfl

/-- Row `r` of the result array is in the block of point `r / 256`: the blocks cover the array. -/
theorem cover (i : S16384x128.Idx) : ∃ t : Fin cfg0.N, (cfg0.win 5).flush t = true ∧ i ∈ ((cfg0.win 5).blk t).view.set := by
  have hi0 : (i 0).val < 16384 := (i 0).isLt
  have hi1 : (i 1).val < 128 := (i 1).isLt
  obtain ⟨t, ht⟩ : ∃ t : Fin cfg0.N, t.val = (i 0).val / 256 :=
    ⟨⟨(i 0).val / 256, by rw [show cfg0.N = 64 from N_0]; omega⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 256 ≤ (i 0).val ∧ (i 0).val < win0_5.index t (0 : Fin 2) * 256 + 256
    rw [e0, ht]; omega
  | ⟨1, _⟩ =>
    show win0_5.index t (1 : Fin 2) * 128 ≤ (i 1).val ∧ (i 1).val < win0_5.index t (1 : Fin 2) * 128 + 128
    rw [e1]; omega

/-- THE RESULT ARRAY after the run is the aggregate of the argument arrays. -/
theorem final (c : Dev nD) : (dats m 0 c).arrAt 5 cfg0.N = result m c :=
  (dats m 0 c).arrAt_eq_of_cover 5 (result m c) (fun t _ => flushed_eq m c t) cover

/-- The device program's run: it terminates with the result array at the aggregate and the arguments unchanged. -/
theorem run : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Blocks

end
-- ==== Proof.RefAgg.lean ====
/-
  THE REFERENCE IS THE AGGREGATE. The reference computes, entry by entry,
      ((R · W) (p, q) + (A · T) (p, q)) + b (q),
  with `R` the scaled feature rows, `T = R · lag` the projected rows, `A` the adjacency, `W` the weight and `b` the
  bias spread over the rows. The aggregate (Spec.lean) adds the two products in the other order; addition on the
  extended reals is commutative.
-/
import proofs.«162419_j38603166056521_2_alg».proof.Proof.Gen.ReferenceIdeal.Read
import proofs.«162419_j38603166056521_2_alg».proof.Proof.Spec

noncomputable section

open scoped BigOperators

namespace Cert.ReferenceIdeal.RefAgg

open Cert.ReferenceIdeal Cert.ReferenceIdeal.Gen Cert.ReferenceIdeal.Read Idealize.ShloMosaic Idealize.ShloMosaic.ValueIdx

/-- The reference's result term is the aggregate of the adjacency, the projected rows, the scaled rows, the weight and the bias. -/
theorem result_eq (x0 : (⟨S16384x128, .f32⟩ : BufTy).Contents (Elt Ideal)) (x1 : (⟨S16384x16384, .f32⟩ : BufTy).Contents (Elt Ideal))
    (x2 : (⟨S16384, .i32⟩ : BufTy).Contents (Elt Ideal)) (x3 x4 : (⟨S128x128, .f32⟩ : BufTy).Contents (Elt Ideal))
    (x5 : (⟨S64x128, .f32⟩ : BufTy).Contents (Elt Ideal)) (x6 : (⟨S128, .f32⟩ : BufTy).Contents (Elt Ideal)) :
    val_main_v14 (F := Ideal) x0 x1 x2 x3 x4 x5 x6
      = Cert.Spec.agg x1 (val_main_v9 (F := Ideal) x0 x2 x4 x5) (val_main_v7 (F := Ideal) x0 x2 x5) x3 x6 := by
  funext i
  obtain ⟨p, q, rfl⟩ : ∃ (p : Fin 16384) (q : Fin 128), i = ix2 p q := ⟨i 0, i 1, eq_ix2 i⟩
  have el8 : ∀ k : Fin 128, lidx_main_v8 (ix2 p q) k = ix2 p k := fun k =>
    funext fun a => Fin.ext (by match a with | ⟨0, _⟩ => rfl | ⟨1, _⟩ => rfl)
  have er8 : ∀ k : Fin 128, ridx_main_v8 (ix2 p q) k = ix2 k q := fun k =>
    funext fun a => Fin.ext (by match a with | ⟨0, _⟩ => rfl | ⟨1, _⟩ => rfl)
  have el10 : ∀ k : Fin 16384, lidx_main_v10 (ix2 p q) k = ix2 p k := fun k =>
    funext fun a => Fin.ext (by match a with | ⟨0, _⟩ => rfl | ⟨1, _⟩ => rfl)
  have er10 : ∀ k : Fin 16384, ridx_main_v10 (ix2 p q) k = ix2 k q := fun k =>
    funext fun a => Fin.ext (by match a with | ⟨0, _⟩ => rfl | ⟨1, _⟩ => rfl)
  have eb : idx_main_v12 (idx_main_v13 (ix2 p q)) = ix1 q :=
    funext fun a => Fin.ext (by match a with | ⟨0, _⟩ => rfl)
  rw [val_main_v14_apply, val_main_v11_apply, val_main_v8_apply, val_main_v10_apply, val_main_v13_apply, val_main_v12_apply,
    Cert.Spec.agg_apply]
  simp only [el8, er8, el10, er10, eb, Ideal.addf_def]
  rw [add_comm (∑ k : Fin 128, _)]

end Cert.ReferenceIdeal.RefAgg

end
-- ==== Proof.lean ====
/-
  A graph convolution with region-scaled features: for 16384 vertices with 128 features each, a 64-row region table
  `reg`, an adjacency `A`, two 128×128 weights `W`, `lag` and a bias `b`,
      R = h ∘ reg[idx]   (each vertex's row scaled by its region's row),   T = R · lag,
      out = A · T + R · W + b.
  The device program forms `R` and `T` on the host exactly as the reference does, then computes the result 256 rows
  at a time; inside a block the 16384-term sum of `A · T` is accumulated 1024 terms per trip of a loop of sixteen
  trips, and `R · W` and the bias are added on the last store. The reference is `(R · W + A · T) + b`.
  On the extended reals both are the aggregate of Proof/Spec.lean: a sum taken in chunks is the sum, and the two
  products are added in either order. Neither step needs the inputs to be finite, so the precondition is not used
  beyond the frames. The narrowings to bf16 are the identity on extended reals, and the idealization rewrote nothing
  (`preserves` is `True`).
  Proof/Payload.lean: the body's arithmetic at an entry. Proof/Trip.lean: the loop as a partial sum.
  Proof/Piece.lean, Proof/Point.lean: the block a grid point leaves. Proof/HostSide.lean: the arrays the launch finds.
  Proof/Blocks.lean: the 64 row blocks tile the result. Proof/RefAgg.lean: the reference is the aggregate.
-/
import proofs.«162419_j38603166056521_2_alg».proof.Defs
import proofs.«162419_j38603166056521_2_alg».proof.Proof.Gen.Kernel
import proofs.«162419_j38603166056521_2_alg».proof.Proof.Gen.Kernel.Frame
import proofs.«162419_j38603166056521_2_alg».proof.Proof.Gen.KernelIdeal
import proofs.«162419_j38603166056521_2_alg».proof.Proof.Gen.KernelIdeal.Frame
import proofs.«162419_j38603166056521_2_alg».proof.Proof.Gen.KernelIdeal.Value
import proofs.«162419_j38603166056521_2_alg».proof.Proof.Gen.ReferenceIdeal
import proofs.«162419_j38603166056521_2_alg».proof.Proof.Gen.ReferenceIdeal.Run
import proofs.«162419_j38603166056521_2_alg».proof.Proof.Gen.ReferenceIdeal.Read
import proofs.«162419_j38603166056521_2_alg».proof.Proof.Gen.Pre_finite_inputs
import proofs.«162419_j38603166056521_2_alg».proof.Proof.Blocks
import proofs.«162419_j38603166056521_2_alg».proof.Proof.RefAgg

noncomputable section

namespace Cert.Proof

open Idealize.ShloMosaic Idealize.ShloMosaic.TcCoe Idealize.SL.Sem

/-- The host forms the scaled feature rows in the same way in both programs. -/
theorem same_scaled (x0 : (⟨Cert.ReferenceIdeal.S16384x128, .f32⟩ : BufTy).Contents (Elt Ideal))
    (x2 : (⟨Cert.ReferenceIdeal.S16384, .i32⟩ : BufTy).Contents (Elt Ideal))
    (x5 : (⟨Cert.ReferenceIdeal.S64x128, .f32⟩ : BufTy).Contents (Elt Ideal)) :
    Cert.ReferenceIdeal.Read.val_main_v7 (F := Ideal) x0 x2 x5 = Cert.KernelIdeal.HostSide.scaled (F := Ideal) x0 x2 x5 := rfl

/-- … and projects them through the lag weight in the same way. -/
theorem same_projected (x0 : (⟨Cert.ReferenceIdeal.S16384x128, .f32⟩ : BufTy).Contents (Elt Ideal))
    (x2 : (⟨Cert.ReferenceIdeal.S16384, .i32⟩ : BufTy).Contents (Elt Ideal))
    (x4 : (⟨Cert.ReferenceIdeal.S128x128, .f32⟩ : BufTy).Contents (Elt Ideal))
    (x5 : (⟨Cert.ReferenceIdeal.S64x128, .f32⟩ : BufTy).Contents (Elt Ideal)) :
    Cert.ReferenceIdeal.Read.val_main_v9 (F := Ideal) x0 x2 x4 x5 = Cert.KernelIdeal.HostSide.projected (F := Ideal) x0 x2 x5 x4 := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the aggregate of the (agreeing) argument arrays in their result. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [h0, h1, h2, h3, h4, h5, h6, Cert.ReferenceIdeal.Read.val_main_v14_eq, Cert.ReferenceIdeal.RefAgg.result_eq,
    same_scaled, same_projected]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
